-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S128x64 .f32) (main_arg6 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S2000x128 : Shape := ⟨2, ![2000, 128]⟩
abbrev S800000x128 : Shape := ⟨2, ![800000, 128]⟩
abbrev S50000x1 : Shape := ⟨2, ![50000, 1]⟩
abbrev S1x128 : Shape := ⟨2, ![1, 128]⟩
abbrev S2000x1 : Shape := ⟨2, ![2000, 1]⟩
abbrev S50000x64 : Shape := ⟨2, ![50000, 64]⟩
abbrev S2000x64 : Shape := ⟨2, ![2000, 64]⟩
abbrev S800000x64 : Shape := ⟨2, ![800000, 64]⟩
abbrev S1x64 : Shape := ⟨2, ![1, 64]⟩

abbrev nBuf : Space → Nat
  | .hbm => 87
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000, .f32⟩
  | .hbm, ⟨35, _⟩ => ⟨S800000, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000, .f32⟩
  | .hbm, ⟨45, _⟩ => ⟨S800000, .f32⟩
  | .hbm, ⟨46, _⟩ => ⟨S50000, .f32⟩
  | .hbm, ⟨47, _⟩ => ⟨S50000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S800000x1, .f32⟩
  | .hbm, ⟨58, _⟩ => ⟨S800000x128, .f32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S50000x1, .f32⟩
  | .hbm, ⟨65, _⟩ => ⟨S1x128, .f32⟩
  | .hbm, ⟨66, _⟩ => ⟨S50000x128, .f32⟩
  | .hbm, ⟨67, _⟩ => ⟨S50000x64, .f32⟩
  | .hbm, ⟨68, _⟩ => ⟨S_, .i32⟩
  | .hbm, ⟨69, _⟩ => ⟨S800000, .i32⟩
  | .hbm, ⟨70, _⟩ => ⟨S800000, .i1⟩
  | .hbm, ⟨71, _⟩ => ⟨S_, .i32⟩
  | .hbm, ⟨72, _⟩ => ⟨S800000, .i32⟩
  | .hbm, ⟨73, _⟩ => ⟨S800000, .i32⟩
  | .hbm, ⟨74, _⟩ => ⟨S800000, .i32⟩
  | .hbm, ⟨75, _⟩ => ⟨S800000x1, .i32⟩
  | .hbm, ⟨76, _⟩ => ⟨S800000x64, .f32⟩
  | .hbm, ⟨77, _⟩ => ⟨S800000x1, .f32⟩
  | .hbm, ⟨78, _⟩ => ⟨S800000x64, .f32⟩
  | .hbm, ⟨79, _⟩ => ⟨S800000x64, .f32⟩
  | .hbm, ⟨80, _⟩ => ⟨S_, .f32⟩
  | .hbm, ⟨81, _⟩ => ⟨S50000x64, .f32⟩
  | .hbm, ⟨82, _⟩ => ⟨S800000x1, .i32⟩
  | .hbm, ⟨83, _⟩ => ⟨S50000x64, .f32⟩
  | .hbm, ⟨84, _⟩ => ⟨S50000x1, .f32⟩
  | .hbm, ⟨85, _⟩ => ⟨S1x64, .f32⟩
  | .hbm, ⟨86, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x1, .f32⟩
  | .local _ .vmem, ⟨24, _⟩ => ⟨S2000x1, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S50000_S50000x1 : S50000.ShapeCasts S50000x1
  shapeCasts_S128_S1x128 : S128.ShapeCasts S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x64_S2000x64_1_0_0_1_n_n_wf : DotDims.WF S2000x128 S128x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S50000x64.size a
  hwx3_1 : ∀ i : grid3.Coords, EltTy.bits .f32 = 32 ∨ (Rect.block (s := S50000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S50000x64.size a
  hwx3_4 : ∀ i : grid3.Coords, EltTy.bits .f32 = 32 ∨ (Rect.block (s := S50000x64) S2000x64.size (cc3_transform_4 i) (hinb3_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 134
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x128, .f32⟩
  | 4 => ⟨S128, .f32⟩
  | 5 => ⟨S128x64, .f32⟩
  | 6 => ⟨S64, .f32⟩
  | 7 => ⟨S1x800000, .i32⟩
  | 8 => ⟨S800000, .i32⟩
  | 9 => ⟨S1x800000, .i32⟩
  | 10 => ⟨S800000, .i32⟩
  | 11 => ⟨S50000x128, .f32⟩
  | 12 => ⟨S_, .f32⟩
  | 13 => ⟨S50000, .f32⟩
  | 14 => ⟨S800000x1, .i32⟩
  | 15 => ⟨S50000, .f32⟩
  | 16 => ⟨S_, .f32⟩
  | 17 => ⟨S50000, .f32⟩
  | 18 => ⟨S50000, .f32⟩
  | 19 => ⟨S_, .f32⟩
  | 20 => ⟨S50000, .f32⟩
  | 21 => ⟨S50000, .i1⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000, .f32⟩
  | 36 => ⟨S800000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S800000, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x128, .f32⟩
  | 56 => ⟨S800000x1, .f32⟩
  | 57 => ⟨S800000x128, .f32⟩
  | 58 => ⟨S800000x128, .f32⟩
  | 59 => ⟨S_, .f32⟩
  | 60 => ⟨S50000x128, .f32⟩
  | 61 => ⟨S800000x1, .i32⟩
  | 62 => ⟨S50000x128, .f32⟩
  | 63 => ⟨S50000, .f32⟩
  | 64 => ⟨S50000x1, .f32⟩
  | 65 => ⟨S50000x128, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x64, .f32⟩
  | 75 => ⟨S_, .f32⟩
  | 76 => ⟨S50000, .f32⟩
  | 77 => ⟨S800000x1, .i32⟩
  | 78 => ⟨S50000, .f32⟩
  | 79 => ⟨S_, .f32⟩
  | 80 => ⟨S50000, .f32⟩
  | 81 => ⟨S50000, .f32⟩
  | 82 => ⟨S_, .f32⟩
  | 83 => ⟨S50000, .f32⟩
  | 84 => ⟨S50000, .i1⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000, .f32⟩
  | 99 => ⟨S800000, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000, .f32⟩
  | 109 => ⟨S800000, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000x64, .f32⟩
  | 119 => ⟨S800000x1, .f32⟩
  | 120 => ⟨S800000x64, .f32⟩
  | 121 => ⟨S800000x64, .f32⟩
  | 122 => ⟨S_, .f32⟩
  | 123 => ⟨S50000x64, .f32⟩
  | 124 => ⟨S800000x1, .i32⟩
  | 125 => ⟨S50000x64, .f32⟩
  | 126 => ⟨S50000, .f32⟩
  | 127 => ⟨S50000x1, .f32⟩
  | _ => ⟨S50000x128, .f32⟩

abbrev hbmTy0_1 (i : Nat) : BufTy := match i % 128 with
  | 0 => ⟨S50000x64, .f32⟩
  | 1 => ⟨S50000x64, .f32⟩
  | 2 => ⟨S50000x64, .f32⟩
  | 3 => ⟨S1x64, .f32⟩
  | 4 => ⟨S50000x64, .f32⟩
  | 5 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_cst : Ref sig .tc := ⟨.hbm, 71, rfl⟩
abbrev main_call1_v0 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_c_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_15 : Ref sig .tc := ⟨.hbm, 100, rfl⟩
abbrev main_v70 : Ref sig .tc := ⟨.hbm, 101, rfl⟩
abbrev main_v71 : Ref sig .tc := ⟨.hbm, 102, rfl⟩
abbrev main_c_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_c_17 : Ref sig .tc := ⟨.hbm, 110, rfl⟩
abbrev main_v78 : Ref sig .tc := ⟨.hbm, 111, rfl⟩
abbrev main_v79 : Ref sig .tc := ⟨.hbm, 112, rfl⟩
abbrev main_c_18 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_19 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KernelRun.lean ====
/-
  The idealized kernel's run with its result kept. The program is four tiled regions among stretches of host
  operations; read boundary by boundary, the buffers' contents after the last region are a fold `W9` from the launch
  memory (a host stretch applies its operations, a region leaves in each of its arrays what its write-backs folded).
  Every weakly fair execution terminates, nothing faulting, with the result buffer holding what that fold holds
  at it, and the seven argument arrays as launched.
-/
import proofs.«128148_j57019985822064_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the segments, its last thread state read against the final memory: the result buffer at the
    fold's contents, each argument back at its launch contents. -/
theorem run_result : θ_run defs (onTc (τ := τ) (main (F := F))) ⟨m, fun _ => 0, ρ⟩ (fun r => ∀ c : Dev nD,
      r.2.mem ((c.tc : Thread nD τ).loc main_v63) = W9 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v63 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.ResultRun

end
-- ==== Proof.LibMatmul.lean ====
/-
  A plain matrix product read at an index: for the dimension numbers that contract the left operand's second
  axis with the right operand's first (rows × inner times inner × columns, no batch axis), a product into the
  zero accumulator is, at `(i, j)`, the sum over the inner coordinate `k` of `lhs (i, k) · rhs (k, j)`.
-/
import Idealize.ShloMosaic.PureOps.Ideal.Laws
import Idealize.ShloMosaic.Lib.ValueIdx

noncomputable section

namespace Idealize.ShloMosaic.ValueIdx

/-- The plain product into the zero accumulator, at `(i, j)`, as a sum over the inner coordinate. -/
theorem matmul_plain_zero_apply (M K N : ℕ) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact hk)
  have er : (DotDims.plain M K N).rhsIdx (ix2 i j) ((contrEquiv1 (DotDims.plain M K N) K rfl rfl).symm k) = ix2 k j :=
    funext fun a => Fin.ext (by
      match a with
      | ⟨0, _⟩ => exact hk
      | ⟨1, _⟩ => rfl)
  rw [el, er]

end Idealize.ShloMosaic.ValueIdx

end
-- ==== Proof.LibDot.lean ====
/-
  The host's `dot_general` read at an index: for the dimension numbers that contract the left operand's second
  axis with the right operand's first (rows × inner times inner × columns, no batch axis), the product at the
  extended reals is, at `(i, j)`, the sum over the inner coordinate `k` of `lhs (i, k) · rhs (k, j)`,
  whatever the precision and the schedule key. Beside the same fact for a product into the zero accumulator this
  makes a row-tiled product and the whole product one function of the two matrices.
-/
import Idealize.ShloMosaic.PureOps.Ideal.Laws
import Idealize.ShloMosaic.Lib.ValueIdx

noncomputable section

namespace Idealize.ShloMosaic.ValueIdx

/-- The host's plain product, at `(i, j)`, as a sum over the inner coordinate. -/
theorem dotGeneral_plain_apply (M K N : ℕ) {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact hk)
  have er : (DotDims.plain M K N).rhsIdx (ix2 i j) ((contrEquiv1 (DotDims.plain M K N) K rfl rfl).symm k) = ix2 k j :=
    funext fun a => Fin.ext (by
      match a with
      | ⟨0, _⟩ => exact hk
      | ⟨1, _⟩ => rfl)
  rw [el, er]

end Idealize.ShloMosaic.ValueIdx

end
-- ==== Proof.Dense1.lean ====
/-
  The first dense layer's region: the 50000 × 128 node features times the 128 × 128 weight, computed 2000 rows at a
  time. Each grid point multiplies its block of rows by the whole weight into a zero accumulator; an entry of that
  block product is the sum over the inner coordinate of row · column, which is the same entry of the whole
  product, so after the 25 points the output array holds the host's plain product of the two arrays.
-/
import proofs.«128148_j57019985822064_1_alg».proof.Proof.Gen.KernelIdeal.Frame
import proofs.«128148_j57019985822064_1_alg».proof.Proof.LibMatmul
import proofs.«128148_j57019985822064_1_alg».proof.Proof.LibDot
import Idealize.ShloMosaic.Lib.Pipeline.Value
import Idealize.ShloMosaic.Lib.ValueIdx
import Idealize.ShloMosaic.PureOps.Ideal.Laws

set_option maxRecDepth 16384

noncomputable section

namespace Cert.KernelIdeal.Dense1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The whole product: the host's plain `dot_general` of the two matrices. -/
abbrev product (X : FVec Ideal S50000x128 .f32) (W : FVec Ideal S128x128 .f32) : FVec Ideal S50000x128 .f32 :=
  Host.dotGeneral (F := Ideal) (DotDims.plain 50000 128 128) none X W

/-- The body's product of a block of 2000 rows, at `(p, q)`: the sum over the inner coordinate (the change of
    float format before the product is the identity on the extended reals). -/
theorem block_product_apply (x0 : Vec Ideal S2000x128 .f32) (x1 : Vec Ideal S128x128 .f32) (p : Fin 2000) (q : Fin 128) :
    k0_pay1 x0 x1 (ix2 p q) = ∑ k : Fin 128, x0 (ix2 p k) * x1 (ix2 k q) := by
  unfold k0_pay1
  exact matmul_plain_zero_apply 2000 128 128 none _ _ p q

/-- Row `T·2000 + p` of the whole product is row `p` of the product of the `T`-th block of rows: each entry is a sum
    over the inner coordinate of the same terms. -/
theorem block_eq (X : FVec Ideal S50000x128 .f32) (W : FVec Ideal S128x128 .f32)
    (x0 : Vec Ideal S2000x128 .f32) (x1 : Vec Ideal S128x128 .f32) (T : ℕ)
    (h0 : ∀ (y' : S2000x128.Idx) (i' : S50000x128.Idx), (i' 0).val = T * 2000 + (y' 0).val → (i' 1).val = (y' 1).val → x0 y' = X i')
    (h1 : x1 = W) (y : S2000x128.Idx) (i : S50000x128.Idx)
    (hi0 : (i 0).val = T * 2000 + (y 0).val) (hi1 : (i 1).val = (y 1).val) :
    k0_pay1 x0 x1 y = product X W i := by
  obtain ⟨p, q, rfl⟩ : ∃ (p : Fin 2000) (q : Fin 128), y = ix2 p q := ⟨y 0, y 1, eq_ix2 y⟩
  obtain ⟨r, s, rfl⟩ : ∃ (r : Fin 50000) (s : Fin 128), i = ix2 r s := ⟨i 0, i 1, eq_ix2 i⟩
  obtain rfl : s = q := Fin.ext hi1
  subst h1
  rw [block_product_apply]
  refine Eq.trans ?_ (dotGeneral_plain_apply 50000 128 128 none .single X x1 r s).symm
  exact Finset.sum_congr rfl fun k _ => congrArg (· * x1 (ix2 k s)) (h0 (ix2 p k) (ix2 r k) hi0 rfl)

/-- The printed index maps over the grid: the row blocks move with the point, the weight stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the arrays as the region finds them. -/
theorem flushed_eq (c : Dev nD) (t : Fin cfg0.N) :
    (dat0 V c).flushed 2 t = ((cfg0.win 2).blk t).view.read (Elt Ideal) (product (V c main_arg0) (V c main_arg3)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  obtain ⟨f0, f1, f2, f3, f4, f5⟩ := idx_facts t
  funext y
  refine block_eq (V c main_arg0) (V c main_arg3) (iblk0 V c 0 t) (iblk0 V c 1 t) t.val ?_ ?_ y _ ?_ ?_
  · intro y' i' e0 e1
    show V c main_arg0 (((cfg0.win 0).blk t).view.emb y') = V c main_arg0 i'
    refine congrArg _ (funext fun a => Fin.ext ?_)
    match a with
    | ⟨0, _⟩ => show win0_0.index t (0 : Fin 2) * 2000 + 1 * (y' 0).val = (i' 0).val; rw [f0, e0]; omega
    | ⟨1, _⟩ => show win0_0.index t (1 : Fin 2) * 128 + 1 * (y' 1).val = (i' 1).val; rw [f1, e1]; omega
  · funext y'
    show V c main_arg3 (((cfg0.win 1).blk t).view.emb y') = V c main_arg3 y'
    refine congrArg _ (funext fun a => Fin.ext ?_)
    match a with
    | ⟨0, _⟩ => show win0_1.index t (0 : Fin 2) * 128 + 1 * (y' 0).val = (y' 0).val; rw [f2]; omega
    | ⟨1, _⟩ => show win0_1.index t (1 : Fin 2) * 128 + 1 * (y' 1).val = (y' 1).val; rw [f3]; omega
  · show win0_2.index t (0 : Fin 2) * 2000 + 1 * (y 0).val = t.val * 2000 + (y 0).val; rw [f4]; omega
  · show win0_2.index t (1 : Fin 2) * 128 + 1 * (y 1).val = (y 1).val; rw [f5]; omega

/-- An index of the array is in point `t`'s block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- The 25 blocks of 2000 rows tile the 50000 rows: row `r` is in block `r / 2000`. -/
theorem cover (i : S50000x128.Idx) : ∃ t : Fin cfg0.N, (cfg0.win 2).flush t = true ∧ i ∈ ((cfg0.win 2).blk t).view.set := by
  have hN : grid0.N = 25 := N_0
  have h0 : (i 0).val < 50000 := (i 0).isLt
  have h1 : (i 1).val < 128 := (i 1).isLt
  have hlt : (i 0).val / 2000 < cfg0.N := by show _ < grid0.N; rw [hN]; omega
  refine ⟨⟨(i 0).val / 2000, hlt⟩, flush0_2 _, ?_⟩
  rw [mem_blk]
  obtain ⟨f0, f1, f2, f3, f4, f5⟩ := idx_facts ⟨(i 0).val / 2000, hlt⟩
  intro a
  match a with
  | ⟨0, _⟩ =>
    show win0_2.index ⟨(i 0).val / 2000, hlt⟩ (0 : Fin 2) * 2000 ≤ (i 0).val ∧ (i 0).val < win0_2.index ⟨(i 0).val / 2000, hlt⟩ (0 : Fin 2) * 2000 + 2000
    rw [f4]; show (i 0).val / 2000 * 2000 ≤ (i 0).val ∧ (i 0).val < (i 0).val / 2000 * 2000 + 2000; omega
  | ⟨1, _⟩ =>
    show win0_2.index ⟨(i 0).val / 2000, hlt⟩ (1 : Fin 2) * 128 ≤ (i 1).val ∧ (i 1).val < win0_2.index ⟨(i 0).val / 2000, hlt⟩ (1 : Fin 2) * 128 + 128
    rw [f5]; omega

/-- After the region its output array holds the whole product of the two input arrays as it found them. -/
theorem array_eq (c : Dev nD) : (dat0 V c).arrAt 2 cfg0.N = product (V c main_arg0) (V c main_arg3) :=
  (dat0 V c).arrAt_eq_of_cover 2 _ (fun t _ => flushed_eq V c t) cover

end Cert.KernelIdeal.Dense1

end
-- ==== Proof.Dense2.lean ====
/-
  The second dense layer's region: the 50000 × 128 hidden features times the 128 × 64 weight, computed 2000 rows at a
  time. Each grid point multiplies its block of rows by the whole weight into a zero accumulator; an entry of that
  block product is the sum over the inner coordinate of row · column, which is the same entry of the whole
  product, so after the 25 points the output array holds the host's plain product of the two arrays.
-/
import proofs.«128148_j57019985822064_1_alg».proof.Proof.Gen.KernelIdeal.Frame
import proofs.«128148_j57019985822064_1_alg».proof.Proof.LibMatmul
import proofs.«128148_j57019985822064_1_alg».proof.Proof.LibDot
import Idealize.ShloMosaic.Lib.Pipeline.Value
import Idealize.ShloMosaic.Lib.ValueIdx
import Idealize.ShloMosaic.PureOps.Ideal.Laws

set_option maxRecDepth 16384

noncomputable section

namespace Cert.KernelIdeal.Dense2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The whole product: the host's plain `dot_general` of the two matrices. -/
abbrev product (X : FVec Ideal S50000x128 .f32) (W : FVec Ideal S128x64 .f32) : FVec Ideal S50000x64 .f32 :=
  Host.dotGeneral (F := Ideal) (DotDims.plain 50000 128 64) none X W

/-- The body's product of a block of 2000 rows, at `(p, q)`: the sum over the inner coordinate (the change of
    float format before the product is the identity on the extended reals). -/
theorem block_product_apply (x0 : Vec Ideal S2000x128 .f32) (x1 : Vec Ideal S128x64 .f32) (p : Fin 2000) (q : Fin 64) :
    k2_pay1 x0 x1 (ix2 p q) = ∑ k : Fin 128, x0 (ix2 p k) * x1 (ix2 k q) := by
  unfold k2_pay1
  simp only [shapeCast_self]
  exact matmul_plain_zero_apply 2000 128 64 none _ _ p q

/-- Row `T·2000 + p` of the whole product is row `p` of the product of the `T`-th block of rows: each entry is a sum
    over the inner coordinate of the same terms. -/
theorem block_eq (X : FVec Ideal S50000x128 .f32) (W : FVec Ideal S128x64 .f32)
    (x0 : Vec Ideal S2000x128 .f32) (x1 : Vec Ideal S128x64 .f32) (T : ℕ)
    (h0 : ∀ (y' : S2000x128.Idx) (i' : S50000x128.Idx), (i' 0).val = T * 2000 + (y' 0).val → (i' 1).val = (y' 1).val → x0 y' = X i')
    (h1 : x1 = W) (y : S2000x64.Idx) (i : S50000x64.Idx)
    (hi0 : (i 0).val = T * 2000 + (y 0).val) (hi1 : (i 1).val = (y 1).val) :
    k2_pay1 x0 x1 y = product X W i := by
  obtain ⟨p, q, rfl⟩ : ∃ (p : Fin 2000) (q : Fin 64), y = ix2 p q := ⟨y 0, y 1, eq_ix2 y⟩
  obtain ⟨r, s, rfl⟩ : ∃ (r : Fin 50000) (s : Fin 64), i = ix2 r s := ⟨i 0, i 1, eq_ix2 i⟩
  obtain rfl : s = q := Fin.ext hi1
  subst h1
  rw [block_product_apply]
  refine Eq.trans ?_ (dotGeneral_plain_apply 50000 128 64 none .single X x1 r s).symm
  exact Finset.sum_congr rfl fun k _ => congrArg (· * x1 (ix2 k s)) (h0 (ix2 p k) (ix2 r k) hi0 rfl)

/-- The printed index maps over the grid: the row blocks move with the point, the weight stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole product of the arrays as the region finds them. -/
theorem flushed_eq (c : Dev nD) (t : Fin cfg2.N) :
    (dat2 V c).flushed 2 t = ((cfg2.win 2).blk t).view.read (Elt Ideal) (product (V c main_v46) (V c main_arg5)) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x64) hz]
  obtain ⟨f0, f1, f2, f3, f4, f5⟩ := idx_facts t
  funext y
  refine block_eq (V c main_v46) (V c main_arg5) (iblk2 V c 0 t) (iblk2 V c 1 t) t.val ?_ ?_ y _ ?_ ?_
  · intro y' i' e0 e1
    show V c main_v46 (((cfg2.win 0).blk t).view.emb y') = V c main_v46 i'
    refine congrArg _ (funext fun a => Fin.ext ?_)
    match a with
    | ⟨0, _⟩ => show win2_0.index t (0 : Fin 2) * 2000 + 1 * (y' 0).val = (i' 0).val; rw [f0, e0]; omega
    | ⟨1, _⟩ => show win2_0.index t (1 : Fin 2) * 128 + 1 * (y' 1).val = (i' 1).val; rw [f1, e1]; omega
  · funext y'
    show V c main_arg5 (((cfg2.win 1).blk t).view.emb y') = V c main_arg5 y'
    refine congrArg _ (funext fun a => Fin.ext ?_)
    match a with
    | ⟨0, _⟩ => show win2_1.index t (0 : Fin 2) * 128 + 1 * (y' 0).val = (y' 0).val; rw [f2]; omega
    | ⟨1, _⟩ => show win2_1.index t (1 : Fin 2) * 64 + 1 * (y' 1).val = (y' 1).val; rw [f3]; omega
  · show win2_2.index t (0 : Fin 2) * 2000 + 1 * (y 0).val = t.val * 2000 + (y 0).val; rw [f4]; omega
  · show win2_2.index t (1 : Fin 2) * 64 + 1 * (y 1).val = (y 1).val; rw [f5]; omega

/-- An index of the array is in point `t`'s block iff each coordinate is in the block's range on its axis. -/
theorem mem_blk (t : Fin cfg2.N) (i : S50000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v47).slice (win2_2.rect t)).set ↔ _
  rw [View.set_slice_whole, Rect.mem_set_unit]
  exact Iff.rfl

/-- The 25 blocks of 2000 rows tile the 50000 rows: row `r` is in block `r / 2000`. -/
theorem cover (i : S50000x64.Idx) : ∃ t : Fin cfg2.N, (cfg2.win 2).flush t = true ∧ i ∈ ((cfg2.win 2).blk t).view.set := by
  have hN : grid2.N = 25 := N_2
  have h0 : (i 0).val < 50000 := (i 0).isLt
  have h1 : (i 1).val < 64 := (i 1).isLt
  have hlt : (i 0).val / 2000 < cfg2.N := by show _ < grid2.N; rw [hN]; omega
  refine ⟨⟨(i 0).val / 2000, hlt⟩, flush2_2 _, ?_⟩
  rw [mem_blk]
  obtain ⟨f0, f1, f2, f3, f4, f5⟩ := idx_facts ⟨(i 0).val / 2000, hlt⟩
  intro a
  match a with
  | ⟨0, _⟩ =>
    show win2_2.index ⟨(i 0).val / 2000, hlt⟩ (0 : Fin 2) * 2000 ≤ (i 0).val ∧ (i 0).val < win2_2.index ⟨(i 0).val / 2000, hlt⟩ (0 : Fin 2) * 2000 + 2000
    rw [f4]; show (i 0).val / 2000 * 2000 ≤ (i 0).val ∧ (i 0).val < (i 0).val / 2000 * 2000 + 2000; omega
  | ⟨1, _⟩ =>
    show win2_2.index ⟨(i 0).val / 2000, hlt⟩ (1 : Fin 2) * 64 ≤ (i 1).val ∧ (i 1).val < win2_2.index ⟨(i 0).val / 2000, hlt⟩ (1 : Fin 2) * 64 + 64
    rw [f5]; omega

/-- After the region its output array holds the whole product of the two input arrays as it found them. -/
theorem array_eq (c : Dev nD) : (dat2 V c).arrAt 2 cfg2.N = product (V c main_v46) (V c main_arg5) :=
  (dat2 V c).arrAt_eq_of_cover 2 _ (fun t _ => flushed_eq V c t) cover

end Cert.KernelIdeal.Dense2

end
-- ==== Proof.LibRecast.lean ====
/-
  A vector recast as a one-row matrix or as a one-column matrix, read at an index: the row's entry k, and the column's
  entry e, are the vector's entries k and e. (A reshape keeps the row-major position, and the position of (0, k) in a
  1 × n matrix, like that of (e, 0) in an n × 1 matrix, is the position in the vector.)
-/
import Idealize.ShloMosaic.Lib.ValueIdx
import Idealize.ShloMosaic.Lib.Pipeline.Value

noncomputable section

namespace Cert.LibRecast

open Idealize.ShloMosaic Idealize.ShloMosaic.ValueIdx

variable {α : Type}

/-- A vector recast as one row, at (0, k). -/
theorem as_row_apply {n : ℕ} (x : (⟨1, ![n]⟩ : Shape).Idx → α) (h : (⟨1, ![n]⟩ : Shape).ShapeCasts ⟨2, ![1, n]⟩) (k : Fin n) :
    shapeCast ⟨2, ![1, n]⟩ x h (ix2 (0 : Fin 1) k) = x (ix1 k) := by
  refine shapeCast_apply x h (ix2 (0 : Fin 1) k) (ix1 k) ?_
  rewrite [Shape.rowMajor_val_two, Shape.rowMajor_val_one]
  show k.val = 0 * n + k.val
  omega

/-- A vector recast as one column, at (e, 0). -/
theorem as_column_apply {n : ℕ} (x : (⟨1, ![n]⟩ : Shape).Idx → α) (h : (⟨1, ![n]⟩ : Shape).ShapeCasts ⟨2, ![n, 1]⟩) (e : Fin n) :
    shapeCast ⟨2, ![n, 1]⟩ x h (ix2 e (0 : Fin 1)) = x (ix1 e) := by
  refine shapeCast_apply x h (ix2 e (0 : Fin 1)) (ix1 e) ?_
  rewrite [Shape.rowMajor_val_two, Shape.rowMajor_val_one]
  show e.val = e.val * 1 + 0
  omega

end Cert.LibRecast

end
-- ==== Proof.LibRowColumn.lean ====
/-
  A column of per-row values and a row of per-column values spread over a matrix, read at an index.
  A column `x` of shape n × 1 spread across c columns holds `x (p, 0)` at `(p, q)`; a row `y` of shape 1 × c spread
  down n rows holds `y (0, q)` at `(p, q)` — both for the vector broadcast a kernel body applies to a block and for
  the host's `broadcast_in_dim` along the axes `[0, 1]`. A scalar spread over any shape holds the scalar everywhere.
  And a vector recast as a column (n × 1), or as a row (1 × c), is the vector spread by `broadcast_in_dim` along
  axis 0, or along axis 1: both hold the vector's entry e at `(e, 0)`, its entry k at `(0, k)`.
-/
import Idealize.ShloMosaic.Lib.Pipeline.Value
import Idealize.ShloMosaic.Lib.ValueIdx
import proofs.«128148_j57019985822064_1_alg».proof.Proof.LibRecast

noncomputable section

namespace Cert.LibRowColumn

open Idealize.ShloMosaic Idealize.ShloMosaic.ValueIdx

variable {n c : ℕ} {α : Type}

/-- The one coordinate of an axis of extent 1 is 0. -/
theorem fin_one_val (z : Fin 1) : z.val = 0 := by have := z.isLt; omega

/-- A column spread across the columns by a vector broadcast, read at `(p, q)`. -/
theorem spread_col_apply (x : (⟨2, ![n, 1]⟩ : Shape).Idx → α) (h : (⟨2, ![n, 1]⟩ : Shape).Broadcasts ⟨2, ![n, c]⟩)
    (p : Fin n) (q : Fin c) : broadcastTo ⟨2, ![n, c]⟩ x h (ix2 p q) = x (ix2 p (0 : Fin 1)) := by
  refine broadcastTo_apply x h (ix2 p q) (ix2 p (0 : Fin 1)) fun a => ?_
  match a with
  | ⟨0, _⟩ =>
    show p.val = if n = 1 then 0 else p.val
    split_ifs with h1
    · subst h1; exact fin_one_val p
    · rfl
  | ⟨1, _⟩ => exact (if_pos rfl).symm

/-- A row spread down the rows by a vector broadcast, read at `(p, q)`. -/
theorem spread_row_apply (y : (⟨2, ![1, c]⟩ : Shape).Idx → α) (h : (⟨2, ![1, c]⟩ : Shape).Broadcasts ⟨2, ![n, c]⟩)
    (p : Fin n) (q : Fin c) : broadcastTo ⟨2, ![n, c]⟩ y h (ix2 p q) = y (ix2 (0 : Fin 1) q) := by
  refine broadcastTo_apply y h (ix2 p q) (ix2 (0 : Fin 1) q) fun a => ?_
  match a with
  | ⟨0, _⟩ => exact (if_pos rfl).symm
  | ⟨1, _⟩ =>
    show q.val = if c = 1 then 0 else q.val
    split_ifs with h1
    · subst h1; exact fin_one_val q
    · rfl

/-- A column spread across the columns by the host's `broadcast_in_dim` along `[0, 1]`, read at `(p, q)`. -/
theorem host_col_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p (0 : Fin 1)) := by
  refine broadcastInDim_apply ![0, 1] h x (ix2 p q) (ix2 p (0 : Fin 1)) fun a => ?_
  match a with
  | ⟨0, _⟩ =>
    show p.val = if n = 1 then 0 else p.val
    split_ifs with h1
    · subst h1; exact fin_one_val p
    · rfl
  | ⟨1, _⟩ => exact (if_pos rfl).symm

/-- A row spread down the rows by the host's `broadcast_in_dim` along `[0, 1]`, read at `(p, q)`. -/
theorem host_row_apply (y : (⟨2, ![1, c]⟩ : Shape).Idx → α)
    (h : (⟨2, ![1, c]⟩ : Shape).BroadcastsInDim ⟨2, ![n, c]⟩ ![0, 1]) (p : Fin n) (q : Fin c) :
    broadcastInDim ⟨2, ![n, c]⟩ ![0, 1] h y (ix2 p q) = y (ix2 (0 : Fin 1) q) := by
  refine broadcastInDim_apply ![0, 1] h y (ix2 p q) (ix2 (0 : Fin 1) q) fun a => ?_
  match a with
  | ⟨0, _⟩ => exact (if_pos rfl).symm
  | ⟨1, _⟩ =>
    show q.val = if c = 1 then 0 else q.val
    split_ifs with h1
    · subst h1; exact fin_one_val q
    · rfl

/-- A scalar spread over any shape by the host's `broadcast_in_dim` holds the scalar at every index. -/
theorem host_scalar_apply {t : Shape} (z : (⟨0, ![]⟩ : Shape).Idx → α)
    (h : (⟨0, ![]⟩ : Shape).BroadcastsInDim t ![]) (j : t.Idx) :
    broadcastInDim t ![] h z j = z ix0 :=
  broadcastInDim_apply ![] h z j ix0 fun a => a.elim0

/-- A vector recast as a column is the vector spread along axis 0 into the column. -/
theorem column_recast_eq_spread (d : (⟨1, ![n]⟩ : Shape).Idx → α) (hs : (⟨1, ![n]⟩ : Shape).ShapeCasts ⟨2, ![n, 1]⟩)
    (hb : (⟨1, ![n]⟩ : Shape).BroadcastsInDim ⟨2, ![n, 1]⟩ ![0]) :
    shapeCast ⟨2, ![n, 1]⟩ d hs = broadcastInDim ⟨2, ![n, 1]⟩ ![0] hb d := by
  funext j
  obtain ⟨e, z, rfl⟩ : ∃ (e : Fin n) (z : Fin 1), j = ix2 e z := ⟨j 0, j 1, eq_ix2 j⟩
  obtain rfl : z = 0 := Fin.ext (fin_one_val z)
  rw [Cert.LibRecast.as_column_apply d hs e]
  refine (broadcastInDim_apply ![0] hb d (ix2 e (0 : Fin 1)) (ix1 e) fun a => ?_).symm
  match a with
  | ⟨0, _⟩ =>
    show e.val = if n = 1 then 0 else e.val
    split_ifs with h1
    · subst h1; exact fin_one_val e
    · rfl

/-- A vector recast as a row is the vector spread along axis 1 into the row. -/
theorem row_recast_eq_spread (b : (⟨1, ![c]⟩ : Shape).Idx → α) (hs : (⟨1, ![c]⟩ : Shape).ShapeCasts ⟨2, ![1, c]⟩)
    (hb : (⟨1, ![c]⟩ : Shape).BroadcastsInDim ⟨2, ![1, c]⟩ ![1]) :
    shapeCast ⟨2, ![1, c]⟩ b hs = broadcastInDim ⟨2, ![1, c]⟩ ![1] hb b := by
  funext j
  obtain ⟨z, k, rfl⟩ : ∃ (z : Fin 1) (k : Fin c), j = ix2 z k := ⟨j 0, j 1, eq_ix2 j⟩
  obtain rfl : z = 0 := Fin.ext (fin_one_val z)
  rw [Cert.LibRecast.as_row_apply b hs k]
  refine (broadcastInDim_apply ![1] hb b (ix2 (0 : Fin 1) k) (ix1 k) fun a => ?_).symm
  match a with
  | ⟨0, _⟩ =>
    show k.val = if c = 1 then 0 else k.val
    split_ifs with h1
    · subst h1; exact fin_one_val k
    · rfl

end Cert.LibRowColumn

end
-- ==== Proof.Combine1.lean ====
/-
  The first layer's combine region, 2000 rows at a time: out = max((agg + h · d) + b, 0), where agg is the scattered
  neighbour sum, h the projected features, d a column of one factor per row (the squared inverse square-root degree)
  and b the bias row. The body spreads its block of the column across the 128 columns and the bias row down its
  2000 rows; entry by entry that is what the host's operations on the whole arrays give, so after the 25 points the
  output array holds the host's combine of the four arrays.
-/
import proofs.«128148_j57019985822064_1_alg».proof.Proof.Gen.KernelIdeal.Frame
import proofs.«128148_j57019985822064_1_alg».proof.Proof.LibRowColumn
import Idealize.ShloMosaic.Lib.Pipeline.Value
import Idealize.ShloMosaic.Lib.ValueIdx
import Idealize.ShloMosaic.PureOps.Ideal.Laws

set_option maxRecDepth 16384

noncomputable section

namespace Cert.KernelIdeal.Combine1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer's combine on whole arrays, in the host's operations: the aggregate plus the projection scaled row by
    row by the column `D`, plus the bias row `B` on every row, clamped below at 0. -/
abbrev layer (A P : FVec Ideal S50000x128 .f32) (D : FVec Ideal S50000x1 .f32) (B : FVec Ideal S1x128 .f32)
    (hD : S50000x1.BroadcastsInDim S50000x128 ![0, 1]) (hB : S1x128.BroadcastsInDim S50000x128 ![0, 1]) (hZ : S_.BroadcastsInDim S50000x128 ![]) :
    FVec Ideal S50000x128 .f32 :=
  maximumf (addf (addf A (mulf P (broadcastInDim S50000x128 ![0, 1] hD D))) (broadcastInDim S50000x128 ![0, 1] hB B))
    (broadcastInDim S50000x128 ![] hZ (constant S_ .f32 0x00000000#32))

/-- Entry `(T·2000 + p, q)` of the whole combine is entry `(p, q)` of the body's value on the `T`-th blocks of rows:
    both are `(a + h · d) + b` against 0 of the same four entries. -/
theorem block_eq (A P : FVec Ideal S50000x128 .f32) (D : FVec Ideal S50000x1 .f32) (B : FVec Ideal S1x128 .f32)
    (hD : S50000x1.BroadcastsInDim S50000x128 ![0, 1]) (hB : S1x128.BroadcastsInDim S50000x128 ![0, 1]) (hZ : S_.BroadcastsInDim S50000x128 ![])
    (x0 x1 : Vec Ideal S2000x128 .f32) (x2 : Vec Ideal S2000x1 .f32) (x3 : Vec Ideal S1x128 .f32) (T : ℕ)
    (h0 : ∀ (y' : S2000x128.Idx) (i' : S50000x128.Idx), (i' 0).val = T * 2000 + (y' 0).val → (i' 1).val = (y' 1).val → x0 y' = A i')
    (h1 : ∀ (y' : S2000x128.Idx) (i' : S50000x128.Idx), (i' 0).val = T * 2000 + (y' 0).val → (i' 1).val = (y' 1).val → x1 y' = P i')
    (h2 : ∀ (y' : S2000x1.Idx) (i' : S50000x1.Idx), (i' 0).val = T * 2000 + (y' 0).val → (i' 1).val = (y' 1).val → x2 y' = D i')
    (h3 : x3 = B) (y : S2000x128.Idx) (i : S50000x128.Idx)
    (hi0 : (i 0).val = T * 2000 + (y 0).val) (hi1 : (i 1).val = (y 1).val) :
    k1_pay1 x0 x1 x2 x3 y = layer A P D B hD hB hZ i := by
  obtain ⟨p, q, rfl⟩ : ∃ (p : Fin 2000) (q : Fin 128), y = ix2 p q := ⟨y 0, y 1, eq_ix2 y⟩
  obtain ⟨r, s, rfl⟩ : ∃ (r : Fin 50000) (s : Fin 128), i = ix2 r s := ⟨i 0, i 1, eq_ix2 i⟩
  obtain rfl : s = q := Fin.ext hi1
  subst h3
  have e0 := h0 (ix2 p s) (ix2 r s) hi0 rfl
  have e1 := h1 (ix2 p s) (ix2 r s) hi0 rfl
  have e2 := h2 (ix2 p (0 : Fin 1)) (ix2 r (0 : Fin 1)) hi0 rfl
  unfold k1_pay1
  simp only [shapeCast_self, maximumf_apply, addf_apply, mulf_apply, broadcast_apply, Cert.LibRowColumn.spread_col_apply, Cert.LibRowColumn.spread_row_apply]
  rw [Cert.LibRowColumn.host_col_apply D hD r s, Cert.LibRowColumn.host_row_apply x3 hB r s,
    Cert.LibRowColumn.host_scalar_apply (constant S_ .f32 0x00000000#32) hZ (ix2 r s), e0, e1, e2]
  rfl

/-- The printed index maps over the grid: the three row-blocked inputs and the output move with the point, the bias
    row stays. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the whole combine of the arrays as the region finds them. -/
theorem flushed_eq (hD : S50000x1.BroadcastsInDim S50000x128 ![0, 1]) (hB : S1x128.BroadcastsInDim S50000x128 ![0, 1]) (hZ : S_.BroadcastsInDim S50000x128 ![])
    (c : Dev nD) (t : Fin cfg1.N) :
    (dat1 V c).flushed 4 t = ((cfg1.win 4).blk t).view.read (Elt Ideal)
      (layer (V c main_v43) (V c main_v30) (V c main_v44) (V c main_v45) hD hB hZ) := by
  show (cfg1.win 4).cut (grid1.coords t) ((dat1 V c).after 4 t) = _
  rw [after1_4]
  unfold out1_4
  rw [View.canon_unit_zero hz]
  simp only [View.ld_unit_zero (S := S2000x128) hz, View.ld_unit_zero (S := S2000x1) hz, View.ld_unit_zero (S := S1x128) hz]
  obtain ⟨f0, f1, f2, f3, f4, f5, f6, f7, f8, f9⟩ := idx_facts t
  funext y
  refine block_eq (V c main_v43) (V c main_v30) (V c main_v44) (V c main_v45) hD hB hZ
    (iblk1 V c 0 t) (iblk1 V c 1 t) (iblk1 V c 2 t) (iblk1 V c 3 t) t.val ?_ ?_ ?_ ?_ y _ ?_ ?_
  · intro y' i' e0 e1
    show V c main_v43 (((cfg1.win 0).blk t).view.emb y') = V c main_v43 i'
    refine congrArg _ (funext fun a => Fin.ext ?_)
    match a with
    | ⟨0, _⟩ => show win1_0.index t (0 : Fin 2) * 2000 + 1 * (y' 0).val = (i' 0).val; rw [f0, e0]; omega
    | ⟨1, _⟩ => show win1_0.index t (1 : Fin 2) * 128 + 1 * (y' 1).val = (i' 1).val; rw [f1, e1]; omega
  · intro y' i' e0 e1
    show V c main_v30 (((cfg1.win 1).blk t).view.emb y') = V c main_v30 i'
    refine congrArg _ (funext fun a => Fin.ext ?_)
    match a with
    | ⟨0, _⟩ => show win1_1.index t (0 : Fin 2) * 2000 + 1 * (y' 0).val = (i' 0).val; rw [f2, e0]; omega
    | ⟨1, _⟩ => show win1_1.index t (1 : Fin 2) * 128 + 1 * (y' 1).val = (i' 1).val; rw [f3, e1]; omega
  · intro y' i' e0 e1
    show V c main_v44 (((cfg1.win 2).blk t).view.emb y') = V c main_v44 i'
    refine congrArg _ (funext fun a => Fin.ext ?_)
    match a with
    | ⟨0, _⟩ => show win1_2.index t (0 : Fin 2) * 2000 + 1 * (y' 0).val = (i' 0).val; rw [f4, e0]; omega
    | ⟨1, _⟩ => show win1_2.index t (1 : Fin 2) * 1 + 1 * (y' 1).val = (i' 1).val; rw [f5, e1]; omega
  · funext y'
    show V c main_v45 (((cfg1.win 3).blk t).view.emb y') = V c main_v45 y'
    refine congrArg _ (funext fun a => Fin.ext ?_)
    match a with
    | ⟨0, _⟩ => show win1_3.index t (0 : Fin 2) * 1 + 1 * (y' 0).val = (y' 0).val; rw [f6]; omega
    | ⟨1, _⟩ => show win1_3.index t (1 : Fin 2) * 128 + 1 * (y' 1).val = (y' 1).val; rw [f7]; omega
  · show win1_4.index t (0 : Fin 2) * 2000 + 1 * (y 0).val = t.val * 2000 + (y 0).val; rw [f8]; omega
  · show win1_4.index t (1 : Fin 2) * 128 + 1 * (y 1).val = (y 1).val; rw [f9]; omega

/-- An index of the array is in point `t`'s block iff each coordinate is in the block's range on its axis. -/
theorem mem_blk (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v46).slice (win1_4.rect t)).set ↔ _
  rw [View.set_slice_whole, Rect.mem_set_unit]
  exact Iff.rfl

/-- The 25 blocks of 2000 rows tile the 50000 rows: row `r` is in block `r / 2000`. -/
theorem cover (i : S50000x128.Idx) : ∃ t : Fin cfg1.N, (cfg1.win 4).flush t = true ∧ i ∈ ((cfg1.win 4).blk t).view.set := by
  have hN : grid1.N = 25 := N_1
  have h0 : (i 0).val < 50000 := (i 0).isLt
  have h1 : (i 1).val < 128 := (i 1).isLt
  have hlt : (i 0).val / 2000 < cfg1.N := by show _ < grid1.N; rw [hN]; omega
  refine ⟨⟨(i 0).val / 2000, hlt⟩, flush1_4 _, ?_⟩
  rw [mem_blk]
  obtain ⟨f0, f1, f2, f3, f4, f5, f6, f7, f8, f9⟩ := idx_facts ⟨(i 0).val / 2000, hlt⟩
  intro a
  match a with
  | ⟨0, _⟩ =>
    show win1_4.index ⟨(i 0).val / 2000, hlt⟩ (0 : Fin 2) * 2000 ≤ (i 0).val ∧ (i 0).val < win1_4.index ⟨(i 0).val / 2000, hlt⟩ (0 : Fin 2) * 2000 + 2000
    rw [f8]; show (i 0).val / 2000 * 2000 ≤ (i 0).val ∧ (i 0).val < (i 0).val / 2000 * 2000 + 2000; omega
  | ⟨1, _⟩ =>
    show win1_4.index ⟨(i 0).val / 2000, hlt⟩ (1 : Fin 2) * 128 ≤ (i 1).val ∧ (i 1).val < win1_4.index ⟨(i 0).val / 2000, hlt⟩ (1 : Fin 2) * 128 + 128
    rw [f9]; omega

/-- After the region its output array holds the whole combine of the four input arrays as it found them. -/
theorem array_eq (hD : S50000x1.BroadcastsInDim S50000x128 ![0, 1]) (hB : S1x128.BroadcastsInDim S50000x128 ![0, 1]) (hZ : S_.BroadcastsInDim S50000x128 ![])
    (c : Dev nD) :
    (dat1 V c).arrAt 4 cfg1.N = layer (V c main_v43) (V c main_v30) (V c main_v44) (V c main_v45) hD hB hZ :=
  (dat1 V c).arrAt_eq_of_cover 4 _ (fun t _ => flushed_eq V hD hB hZ c t) cover

end Cert.KernelIdeal.Combine1

end
-- ==== Proof.Combine2.lean ====
/-
  The second layer's combine region, 2000 rows at a time: out = (agg + h · d) + b, where agg is the scattered
  neighbour sum, h the projected features, d a column of one factor per row (the squared inverse square-root degree)
  and b the bias row. The body spreads its block of the column across the 64 columns and the bias row down its
  2000 rows; entry by entry that is what the host's operations on the whole arrays give, so after the 25 points the
  output array holds the host's combine of the four arrays.
-/
import proofs.«128148_j57019985822064_1_alg».proof.Proof.Gen.KernelIdeal.Frame
import proofs.«128148_j57019985822064_1_alg».proof.Proof.LibRowColumn
import Idealize.ShloMosaic.Lib.Pipeline.Value
import Idealize.ShloMosaic.Lib.ValueIdx
import Idealize.ShloMosaic.PureOps.Ideal.Laws

set_option maxRecDepth 16384

noncomputable section

namespace Cert.KernelIdeal.Combine2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer's combine on whole arrays, in the host's operations: the aggregate plus the projection scaled row by
    row by the column `D`, plus the bias row `B` on every row. -/
abbrev layer (A P : FVec Ideal S50000x64 .f32) (D : FVec Ideal S50000x1 .f32) (B : FVec Ideal S1x64 .f32)
    (hD : S50000x1.BroadcastsInDim S50000x64 ![0, 1]) (hB : S1x64.BroadcastsInDim S50000x64 ![0, 1]) :
    FVec Ideal S50000x64 .f32 :=
  addf (addf A (mulf P (broadcastInDim S50000x64 ![0, 1] hD D))) (broadcastInDim S50000x64 ![0, 1] hB B)

/-- Entry `(T·2000 + p, q)` of the whole combine is entry `(p, q)` of the body's value on the `T`-th blocks of rows:
    both are `(a + h · d) + b` of the same four entries. -/
theorem block_eq (A P : FVec Ideal S50000x64 .f32) (D : FVec Ideal S50000x1 .f32) (B : FVec Ideal S1x64 .f32)
    (hD : S50000x1.BroadcastsInDim S50000x64 ![0, 1]) (hB : S1x64.BroadcastsInDim S50000x64 ![0, 1])
    (x0 x1 : Vec Ideal S2000x64 .f32) (x2 : Vec Ideal S2000x1 .f32) (x3 : Vec Ideal S1x64 .f32) (T : ℕ)
    (h0 : ∀ (y' : S2000x64.Idx) (i' : S50000x64.Idx), (i' 0).val = T * 2000 + (y' 0).val → (i' 1).val = (y' 1).val → x0 y' = A i')
    (h1 : ∀ (y' : S2000x64.Idx) (i' : S50000x64.Idx), (i' 0).val = T * 2000 + (y' 0).val → (i' 1).val = (y' 1).val → x1 y' = P i')
    (h2 : ∀ (y' : S2000x1.Idx) (i' : S50000x1.Idx), (i' 0).val = T * 2000 + (y' 0).val → (i' 1).val = (y' 1).val → x2 y' = D i')
    (h3 : x3 = B) (y : S2000x64.Idx) (i : S50000x64.Idx)
    (hi0 : (i 0).val = T * 2000 + (y 0).val) (hi1 : (i 1).val = (y 1).val) :
    k3_pay1 x0 x1 x2 x3 y = layer A P D B hD hB i := by
  obtain ⟨p, q, rfl⟩ : ∃ (p : Fin 2000) (q : Fin 64), y = ix2 p q := ⟨y 0, y 1, eq_ix2 y⟩
  obtain ⟨r, s, rfl⟩ : ∃ (r : Fin 50000) (s : Fin 64), i = ix2 r s := ⟨i 0, i 1, eq_ix2 i⟩
  obtain rfl : s = q := Fin.ext hi1
  subst h3
  have e0 := h0 (ix2 p s) (ix2 r s) hi0 rfl
  have e1 := h1 (ix2 p s) (ix2 r s) hi0 rfl
  have e2 := h2 (ix2 p (0 : Fin 1)) (ix2 r (0 : Fin 1)) hi0 rfl
  unfold k3_pay1
  simp only [shapeCast_self, addf_apply, mulf_apply, Cert.LibRowColumn.spread_col_apply, Cert.LibRowColumn.spread_row_apply]
  rw [Cert.LibRowColumn.host_col_apply D hD r s, Cert.LibRowColumn.host_row_apply x3 hB r s, e0, e1, e2]

/-- The printed index maps over the grid: the three row-blocked inputs and the output move with the point, the bias
    row stays. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point `t` writes back is block `t` of the whole combine of the arrays as the region finds them. -/
theorem flushed_eq (hD : S50000x1.BroadcastsInDim S50000x64 ![0, 1]) (hB : S1x64.BroadcastsInDim S50000x64 ![0, 1])
    (c : Dev nD) (t : Fin cfg3.N) :
    (dat3 V c).flushed 4 t = ((cfg3.win 4).blk t).view.read (Elt Ideal)
      (layer (V c main_v60) (V c main_v47) (V c main_v61) (V c main_v62) hD hB) := by
  show (cfg3.win 4).cut (grid3.coords t) ((dat3 V c).after 4 t) = _
  rw [after3_4]
  unfold out3_4
  rw [View.canon_unit_zero hz]
  simp only [View.ld_unit_zero (S := S2000x64) hz, View.ld_unit_zero (S := S2000x1) hz, View.ld_unit_zero (S := S1x64) hz]
  obtain ⟨f0, f1, f2, f3, f4, f5, f6, f7, f8, f9⟩ := idx_facts t
  funext y
  refine block_eq (V c main_v60) (V c main_v47) (V c main_v61) (V c main_v62) hD hB
    (iblk3 V c 0 t) (iblk3 V c 1 t) (iblk3 V c 2 t) (iblk3 V c 3 t) t.val ?_ ?_ ?_ ?_ y _ ?_ ?_
  · intro y' i' e0 e1
    show V c main_v60 (((cfg3.win 0).blk t).view.emb y') = V c main_v60 i'
    refine congrArg _ (funext fun a => Fin.ext ?_)
    match a with
    | ⟨0, _⟩ => show win3_0.index t (0 : Fin 2) * 2000 + 1 * (y' 0).val = (i' 0).val; rw [f0, e0]; omega
    | ⟨1, _⟩ => show win3_0.index t (1 : Fin 2) * 64 + 1 * (y' 1).val = (i' 1).val; rw [f1, e1]; omega
  · intro y' i' e0 e1
    show V c main_v47 (((cfg3.win 1).blk t).view.emb y') = V c main_v47 i'
    refine congrArg _ (funext fun a => Fin.ext ?_)
    match a with
    | ⟨0, _⟩ => show win3_1.index t (0 : Fin 2) * 2000 + 1 * (y' 0).val = (i' 0).val; rw [f2, e0]; omega
    | ⟨1, _⟩ => show win3_1.index t (1 : Fin 2) * 64 + 1 * (y' 1).val = (i' 1).val; rw [f3, e1]; omega
  · intro y' i' e0 e1
    show V c main_v61 (((cfg3.win 2).blk t).view.emb y') = V c main_v61 i'
    refine congrArg _ (funext fun a => Fin.ext ?_)
    match a with
    | ⟨0, _⟩ => show win3_2.index t (0 : Fin 2) * 2000 + 1 * (y' 0).val = (i' 0).val; rw [f4, e0]; omega
    | ⟨1, _⟩ => show win3_2.index t (1 : Fin 2) * 1 + 1 * (y' 1).val = (i' 1).val; rw [f5, e1]; omega
  · funext y'
    show V c main_v62 (((cfg3.win 3).blk t).view.emb y') = V c main_v62 y'
    refine congrArg _ (funext fun a => Fin.ext ?_)
    match a with
    | ⟨0, _⟩ => show win3_3.index t (0 : Fin 2) * 1 + 1 * (y' 0).val = (y' 0).val; rw [f6]; omega
    | ⟨1, _⟩ => show win3_3.index t (1 : Fin 2) * 64 + 1 * (y' 1).val = (y' 1).val; rw [f7]; omega
  · show win3_4.index t (0 : Fin 2) * 2000 + 1 * (y 0).val = t.val * 2000 + (y 0).val; rw [f8]; omega
  · show win3_4.index t (1 : Fin 2) * 64 + 1 * (y 1).val = (y 1).val; rw [f9]; omega

/-- An index of the array is in point `t`'s block iff each coordinate is in the block's range on its axis. -/
theorem mem_blk (t : Fin cfg3.N) (i : S50000x64.Idx) :
    i ∈ ((cfg3.win 4).blk t).view.set ↔ ∀ a : Fin 2, win3_4.index t a * S2000x64.size a ≤ (i a).val ∧ (i a).val < win3_4.index t a * S2000x64.size a + S2000x64.size a := by
  show i ∈ ((View.whole main_v63).slice (win3_4.rect t)).set ↔ _
  rw [View.set_slice_whole, Rect.mem_set_unit]
  exact Iff.rfl

/-- The 25 blocks of 2000 rows tile the 50000 rows: row `r` is in block `r / 2000`. -/
theorem cover (i : S50000x64.Idx) : ∃ t : Fin cfg3.N, (cfg3.win 4).flush t = true ∧ i ∈ ((cfg3.win 4).blk t).view.set := by
  have hN : grid3.N = 25 := N_3
  have h0 : (i 0).val < 50000 := (i 0).isLt
  have h1 : (i 1).val < 64 := (i 1).isLt
  have hlt : (i 0).val / 2000 < cfg3.N := by show _ < grid3.N; rw [hN]; omega
  refine ⟨⟨(i 0).val / 2000, hlt⟩, flush3_4 _, ?_⟩
  rw [mem_blk]
  obtain ⟨f0, f1, f2, f3, f4, f5, f6, f7, f8, f9⟩ := idx_facts ⟨(i 0).val / 2000, hlt⟩
  intro a
  match a with
  | ⟨0, _⟩ =>
    show win3_4.index ⟨(i 0).val / 2000, hlt⟩ (0 : Fin 2) * 2000 ≤ (i 0).val ∧ (i 0).val < win3_4.index ⟨(i 0).val / 2000, hlt⟩ (0 : Fin 2) * 2000 + 2000
    rw [f8]; show (i 0).val / 2000 * 2000 ≤ (i 0).val ∧ (i 0).val < (i 0).val / 2000 * 2000 + 2000; omega
  | ⟨1, _⟩ =>
    show win3_4.index ⟨(i 0).val / 2000, hlt⟩ (1 : Fin 2) * 64 ≤ (i 1).val ∧ (i 1).val < win3_4.index ⟨(i 0).val / 2000, hlt⟩ (1 : Fin 2) * 64 + 64
    rw [f9]; omega

/-- After the region its output array holds the whole combine of the four input arrays as it found them. -/
theorem array_eq (hD : S50000x1.BroadcastsInDim S50000x64 ![0, 1]) (hB : S1x64.BroadcastsInDim S50000x64 ![0, 1])
    (c : Dev nD) :
    (dat3 V c).arrAt 4 cfg3.N = layer (V c main_v60) (V c main_v47) (V c main_v61) (V c main_v62) hD hB :=
  (dat3 V c).arrAt_eq_of_cover 4 _ (fun t _ => flushed_eq V hD hB c t) cover

end Cert.KernelIdeal.Combine2

end
-- ==== Proof.KernelValue.lean ====
/-
  The idealized kernel's result is the reference's result.

  Read boundary by boundary, the kernel's program is: host operations that cut the edge list into its source and
  destination rows and compute the degree normalisation (the scattered sum of the edge weights plus one, its inverse
  square root where positive and zero elsewhere, the per-edge product dinv(src) · w · dinv(dst), and the per-node
  square dinv · dinv); a tiled product x · W1; host operations that gather the projected rows at the sources,
  scale them by the edge factor and scatter-add them at the destinations; a tiled combine
  max((agg + h · dinv²) + b1, 0); a tiled product with W2; the same gather, scale and scatter-add; and a tiled combine
  (agg + h · dinv²) + b2.

  Each tiled region's output array is the host's own term of its input arrays (the plain product; the
  add / multiply / broadcast chain), and a buffer a region does not write keeps what it held. Substituting these back
  from the last region to the launch memory writes the kernel's result as one term of host operations of the seven
  arguments. The reference computes the normalisation once per layer instead of once, and spells the column of
  squared factors and the bias row by broadcast_in_dim where the kernel reshapes; a vector recast as a column or a
  row is that broadcast, and recomputing a term changes nothing, so the two terms are one. No operation is opened and
  no finiteness is used: gather, scatter-add, rsqrt and the comparison stand on both sides as they are.
-/
import proofs.«128148_j57019985822064_1_alg».proof.Proof.Gen.KernelIdeal.Frame
import proofs.«128148_j57019985822064_1_alg».proof.Proof.Gen.ReferenceIdeal.Run
import proofs.«128148_j57019985822064_1_alg».proof.Proof.Dense1
import proofs.«128148_j57019985822064_1_alg».proof.Proof.Dense2
import proofs.«128148_j57019985822064_1_alg».proof.Proof.Combine1
import proofs.«128148_j57019985822064_1_alg».proof.Proof.Combine2
import proofs.«128148_j57019985822064_1_alg».proof.Proof.LibRowColumn
import Idealize.ShloMosaic.Lib.StableHlo.Run

set_option maxRecDepth 16384

noncomputable section

namespace Cert.KernelIdeal.ResultValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- Buffers' contents at the entry of the first region, as the three opening host stretches leave them. -/
abbrev E3 (c : Dev nD) : Valuation τ sig (Elt Ideal) :=
  StableHlo.after hostOps0_2 (StableHlo.after hostOps0_1 (StableHlo.after hostOps0 (W0 m ρ c)))

set_option maxHeartbeats 4000000 in
/-- From memories that agree on the seven arguments, the reference's result term is what the kernel's last region
    leaves in the result buffer. -/
theorem kernel_eq_reference (c : Dev nD)
    (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6)) :
    Cert.ReferenceIdeal.Value.res_main_v98 m' c = W9 m ρ c (Proc.devRef .tc main_v63) := by
  -- the four regions: each output array is the host's term of the region's input arrays
  have e63 : W9 m ρ c (Proc.devRef .tc main_v63)
      = Cert.KernelIdeal.Combine2.layer (StableHlo.after hostOps3 (W7 m ρ c) (Proc.devRef .tc main_v60))
          (StableHlo.after hostOps3 (W7 m ρ c) (Proc.devRef .tc main_v47))
          (StableHlo.after hostOps3 (W7 m ρ c) (Proc.devRef .tc main_v61))
          (StableHlo.after hostOps3 (W7 m ρ c) (Proc.devRef .tc main_v62))
          Cert.ReferenceIdeal.Gen.bcast_S50000x1_S50000x64_0_1 Cert.ReferenceIdeal.Gen.bcast_S1x64_S50000x64_0_1 :=
    (W9_arr m ρ c 4).trans (Cert.KernelIdeal.Combine2.array_eq (V8 m ρ) _ _ c)
  have e47 : W7 m ρ c (Proc.devRef .tc main_v47)
      = Cert.KernelIdeal.Dense2.product (W6 m ρ c (Proc.devRef .tc main_v46)) (W6 m ρ c (Proc.devRef .tc main_arg5)) :=
    (W7_arr m ρ c 2).trans (Cert.KernelIdeal.Dense2.array_eq (V6 m ρ) c)
  have e46 : W6 m ρ c (Proc.devRef .tc main_v46)
      = Cert.KernelIdeal.Combine1.layer (StableHlo.after hostOps1 (W4 m ρ c) (Proc.devRef .tc main_v43))
          (StableHlo.after hostOps1 (W4 m ρ c) (Proc.devRef .tc main_v30))
          (StableHlo.after hostOps1 (W4 m ρ c) (Proc.devRef .tc main_v44))
          (StableHlo.after hostOps1 (W4 m ρ c) (Proc.devRef .tc main_v45))
          Cert.ReferenceIdeal.Gen.bcast_S50000x1_S50000x128_0_1 Cert.ReferenceIdeal.Gen.bcast_S1x128_S50000x128_0_1 Cert.ReferenceIdeal.Gen.bcast_S_S50000x128 :=
    (W6_arr m ρ c 4).trans (Cert.KernelIdeal.Combine1.array_eq (V5 m ρ) _ _ _ c)
  have e30 : W4 m ρ c (Proc.devRef .tc main_v30)
      = Cert.KernelIdeal.Dense1.product (E3 m ρ c (Proc.devRef .tc main_arg0)) (E3 m ρ c (Proc.devRef .tc main_arg3)) :=
    (W4_arr m ρ c 2).trans (Cert.KernelIdeal.Dense1.array_eq (V3 m ρ) c)
  -- buffers a region does not touch keep what they held at its entry
  have k1 : W7 m ρ c (Proc.devRef .tc main_v1) = StableHlo.after hostOps1 (W4 m ρ c) (Proc.devRef .tc main_v1) :=
    (W7_of_ne m ρ c main_v1 (by decide)).trans (W6_of_ne m ρ c main_v1 (by decide))
  have k3 : W7 m ρ c (Proc.devRef .tc main_v3) = StableHlo.after hostOps1 (W4 m ρ c) (Proc.devRef .tc main_v3) :=
    (W7_of_ne m ρ c main_v3 (by decide)).trans (W6_of_ne m ρ c main_v3 (by decide))
  have k28 : W7 m ρ c (Proc.devRef .tc main_v28) = StableHlo.after hostOps1 (W4 m ρ c) (Proc.devRef .tc main_v28) :=
    (W7_of_ne m ρ c main_v28 (by decide)).trans (W6_of_ne m ρ c main_v28 (by decide))
  have k29 : W7 m ρ c (Proc.devRef .tc main_v29) = StableHlo.after hostOps1 (W4 m ρ c) (Proc.devRef .tc main_v29) :=
    (W7_of_ne m ρ c main_v29 (by decide)).trans (W6_of_ne m ρ c main_v29 (by decide))
  have ka6 : W7 m ρ c (Proc.devRef .tc main_arg6) = StableHlo.after hostOps1 (W4 m ρ c) (Proc.devRef .tc main_arg6) :=
    (W7_of_ne m ρ c main_arg6 (by decide)).trans (W6_of_ne m ρ c main_arg6 (by decide))
  have ka5 : W6 m ρ c (Proc.devRef .tc main_arg5) = StableHlo.after hostOps1 (W4 m ρ c) (Proc.devRef .tc main_arg5) :=
    W6_of_ne m ρ c main_arg5 (by decide)
  have j1 : W4 m ρ c (Proc.devRef .tc main_v1) = E3 m ρ c (Proc.devRef .tc main_v1) := W4_of_ne m ρ c main_v1 (by decide)
  have j3 : W4 m ρ c (Proc.devRef .tc main_v3) = E3 m ρ c (Proc.devRef .tc main_v3) := W4_of_ne m ρ c main_v3 (by decide)
  have j28 : W4 m ρ c (Proc.devRef .tc main_v28) = E3 m ρ c (Proc.devRef .tc main_v28) := W4_of_ne m ρ c main_v28 (by decide)
  have j29 : W4 m ρ c (Proc.devRef .tc main_v29) = E3 m ρ c (Proc.devRef .tc main_v29) := W4_of_ne m ρ c main_v29 (by decide)
  have ja4 : W4 m ρ c (Proc.devRef .tc main_arg4) = E3 m ρ c (Proc.devRef .tc main_arg4) := W4_of_ne m ρ c main_arg4 (by decide)
  have ja5 : W4 m ρ c (Proc.devRef .tc main_arg5) = E3 m ρ c (Proc.devRef .tc main_arg5) := W4_of_ne m ρ c main_arg5 (by decide)
  have ja6 : W4 m ρ c (Proc.devRef .tc main_arg6) = E3 m ρ c (Proc.devRef .tc main_arg6) := W4_of_ne m ρ c main_arg6 (by decide)
  -- a vector recast as a column or as a row is the vector spread by the host's broadcast_in_dim
  have r61 : ∀ X : FVec Ideal S50000 .f32, (fun i => shapeCast main_v61.ty.shape X shapeCasts_S50000_S50000x1 i)
      = broadcastInDim S50000x1 ![0] Cert.ReferenceIdeal.Gen.bcast_S50000_S50000x1_0 X := fun X => Cert.LibRowColumn.column_recast_eq_spread X _ _
  have r44 : ∀ X : FVec Ideal S50000 .f32, (fun i => shapeCast main_v44.ty.shape X shapeCasts_S50000_S50000x1 i)
      = broadcastInDim S50000x1 ![0] Cert.ReferenceIdeal.Gen.bcast_S50000_S50000x1_0 X := fun X => Cert.LibRowColumn.column_recast_eq_spread X _ _
  have r62 : ∀ X : FVec Ideal S64 .f32, (fun i => shapeCast main_v62.ty.shape X shapeCasts_S64_S1x64 i)
      = broadcastInDim S1x64 ![1] Cert.ReferenceIdeal.Gen.bcast_S64_S1x64_1 X := fun X => Cert.LibRowColumn.row_recast_eq_spread X _ _
  have r45 : ∀ X : FVec Ideal S128 .f32, (fun i => shapeCast main_v45.ty.shape X shapeCasts_S128_S1x128 i)
      = broadcastInDim S1x128 ![1] Cert.ReferenceIdeal.Gen.bcast_S128_S1x128_1 X := fun X => Cert.LibRowColumn.row_recast_eq_spread X _ _
  -- the inlined select stretch: what it leaves at its result, and that it writes nothing else we read
  have where_v12 : ∀ U : Valuation τ sig (Elt Ideal), StableHlo.after hostOps0_1 U (Proc.devRef .tc main_v12)
      = select (U (Proc.devRef .tc main_v10)) (U (Proc.devRef .tc main_v11))
          (broadcastInDim S50000 ![] bcast_S_S50000 (U (Proc.devRef .tc main_cst_2))) := fun U => by
    after_results_simp
    rfl
  have q1 : ∀ U : Valuation τ sig (Elt Ideal), StableHlo.after hostOps0_1 U (Proc.devRef .tc main_v1) = U (Proc.devRef .tc main_v1) := fun U => by after_results_simp
  have q3 : ∀ U : Valuation τ sig (Elt Ideal), StableHlo.after hostOps0_1 U (Proc.devRef .tc main_v3) = U (Proc.devRef .tc main_v3) := fun U => by after_results_simp
  have qa0 : ∀ U : Valuation τ sig (Elt Ideal), StableHlo.after hostOps0_1 U (Proc.devRef .tc main_arg0) = U (Proc.devRef .tc main_arg0) := fun U => by after_results_simp
  have qa2 : ∀ U : Valuation τ sig (Elt Ideal), StableHlo.after hostOps0_1 U (Proc.devRef .tc main_arg2) = U (Proc.devRef .tc main_arg2) := fun U => by after_results_simp
  have qa3 : ∀ U : Valuation τ sig (Elt Ideal), StableHlo.after hostOps0_1 U (Proc.devRef .tc main_arg3) = U (Proc.devRef .tc main_arg3) := fun U => by after_results_simp
  have qa4 : ∀ U : Valuation τ sig (Elt Ideal), StableHlo.after hostOps0_1 U (Proc.devRef .tc main_arg4) = U (Proc.devRef .tc main_arg4) := fun U => by after_results_simp
  have qa5 : ∀ U : Valuation τ sig (Elt Ideal), StableHlo.after hostOps0_1 U (Proc.devRef .tc main_arg5) = U (Proc.devRef .tc main_arg5) := fun U => by after_results_simp
  have qa6 : ∀ U : Valuation τ sig (Elt Ideal), StableHlo.after hostOps0_1 U (Proc.devRef .tc main_arg6) = U (Proc.devRef .tc main_arg6) := fun U => by after_results_simp
  -- the launch contents
  have z0 : W0 m ρ c (Proc.devRef .tc main_arg0) = m ((c.tc : Thread nD τ).loc main_arg0) := rfl
  have z1 : W0 m ρ c (Proc.devRef .tc main_arg1) = m ((c.tc : Thread nD τ).loc main_arg1) := rfl
  have z2 : W0 m ρ c (Proc.devRef .tc main_arg2) = m ((c.tc : Thread nD τ).loc main_arg2) := rfl
  have z3 : W0 m ρ c (Proc.devRef .tc main_arg3) = m ((c.tc : Thread nD τ).loc main_arg3) := rfl
  have z4 : W0 m ρ c (Proc.devRef .tc main_arg4) = m ((c.tc : Thread nD τ).loc main_arg4) := rfl
  have z5 : W0 m ρ c (Proc.devRef .tc main_arg5) = m ((c.tc : Thread nD τ).loc main_arg5) := rfl
  have z6 : W0 m ρ c (Proc.devRef .tc main_arg6) = m ((c.tc : Thread nD τ).loc main_arg6) := rfl
  rw [e63]
  after_results_simp
  rw [r61, r62, e47, k1, k3, k28, k29, ka6, e46, ka5]
  after_results_simp
  rw [r44, r45, e30, j1, j3, j28, j29, ja4, ja5, ja6]
  dsimp only [E3]
  -- the three opening stretches, one at a time: the middle one (the inlined select) by its own reading
  generalize hU1 : StableHlo.after hostOps0 (W0 m ρ c) = U1
  generalize hU2 : StableHlo.after hostOps0_1 U1 = U2
  after_results_simp
  subst hU2
  rw [where_v12 U1, q1 U1, q3 U1, qa0 U1, qa2 U1, qa3 U1, qa4 U1, qa5 U1, qa6 U1]
  subst hU1
  after_results_simp
  rw [z0, z1, z2, z3, z4, z5, z6]
  unfold Cert.ReferenceIdeal.Value.res_main_v98
  rw [h0, h1, h2, h3, h4, h5, h6]
  rfl

end Cert.KernelIdeal.ResultValue

end
-- ==== Proof.lean ====
/-
  A two-layer graph convolution (PyG GCNConv, evaluation mode) on 50000 nodes and 800000 weighted edges: the kernel
  computes the two dense projections and the two per-node combines as row-tiled regions and leaves the gathers and
  scatter-adds to the host; the reference is the plain jnp program. On the extended reals the two programs compute
  the same function of the seven arguments, operation for operation: the tiled product into a zero accumulator is the
  host's product, the tiled combine is the host's add / multiply / broadcast chain, and the degree normalisation the
  reference computes once per layer is the one the kernel computes once.

  The three frames: the two kernel programs' are the generated frames of their four regions; the reference's is its
  generated run with the result dropped. The idealization rewrote no operation, so `preserves` is trivial. For
  `algebraic` the kernel's run ends with the result buffer at what its last region leaves (Proof/KernelRun.lean), the
  reference's at its operations' composed term, and from memories agreeing on the arguments these are equal
  (Proof/KernelValue.lean, over Proof/Dense1, Combine1, Dense2, Combine2 for the four regions).
-/
import proofs.«128148_j57019985822064_1_alg».proof.Defs
import proofs.«128148_j57019985822064_1_alg».proof.Proof.Gen.Kernel
import proofs.«128148_j57019985822064_1_alg».proof.Proof.Gen.Kernel.Skeleton
import proofs.«128148_j57019985822064_1_alg».proof.Proof.Gen.Kernel.Launch
import proofs.«128148_j57019985822064_1_alg».proof.Proof.Gen.Kernel.Points
import proofs.«128148_j57019985822064_1_alg».proof.Proof.Gen.Kernel.Frame
import proofs.«128148_j57019985822064_1_alg».proof.Proof.Gen.KernelIdeal
import proofs.«128148_j57019985822064_1_alg».proof.Proof.Gen.KernelIdeal.Skeleton
import proofs.«128148_j57019985822064_1_alg».proof.Proof.Gen.KernelIdeal.Launch
import proofs.«128148_j57019985822064_1_alg».proof.Proof.Gen.KernelIdeal.Points
import proofs.«128148_j57019985822064_1_alg».proof.Proof.Gen.KernelIdeal.Frame
import proofs.«128148_j57019985822064_1_alg».proof.Proof.Gen.ReferenceIdeal
import proofs.«128148_j57019985822064_1_alg».proof.Proof.Gen.ReferenceIdeal.Run
import proofs.«128148_j57019985822064_1_alg».proof.Proof.Gen.ReferenceIdeal.Read
import proofs.«128148_j57019985822064_1_alg».proof.Proof.Gen.Pre_finite_inputs
import proofs.«128148_j57019985822064_1_alg».proof.Proof.KernelRun
import proofs.«128148_j57019985822064_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and keeps its arguments: its four regions' generated frame. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the result at one array: what the kernel's last region leaves, which is the
    reference's composed term of arguments that agree. -/
theorem algebraic : Cert.algebraic_KernelIdeal_ReferenceIdeal := by
  intro m ρ m' ρ' _ hagree
  refine ⟨fun c => Cert.KernelIdeal.Gen.W9 m ρ c (Proc.devRef .tc Cert.KernelIdeal.main_v63),
    Cert.KernelIdeal.ResultRun.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  exact Cert.KernelIdeal.ResultValue.kernel_eq_reference m ρ c m' h0 h1 h2 h3 h4 h5 h6

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
